-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x64 : Shape := ⟨2, ![1048576, 64]⟩
abbrev S_ : Shape := ⟨0, ![]⟩

class Facts : Prop where
  bcast_S_S1048576x64 : S_.BroadcastsInDim S1048576x64 (![] : Fin 0 → Fin S1048576x64.rank)
  reducesTo_S1048576x64_S_d0_1 : S1048576x64.ReducesTo [0, 1] S_
  h_S_ : 0 < S_.numel

variable [Facts]

def fn {F : FTy → Type} [FloatOps F] (main_arg0 : FVec F S1048576x64 .f32) (main_arg1 : FVec F S1048576x64 .f32) : IVec S_ 1 :=
  let main_v0 : FVec F S1048576x64 .f32 := Host.absf main_arg0
  let main_cst : FVec F S_ .f32 := constant S_ .f32 0x7F800000#32
  let main_v1 : FVec F S1048576x64 .f32 := broadcastInDim S1048576x64 ![] bcast_S_S1048576x64 main_cst
  let main_v2 : IVec S1048576x64 1 := cmpf .olt main_v0 main_v1
  let main_c : IVec S_ 1 := constantI S_ 1 1#1
  let main_v3 : IVec S_ 1 := (fun x v => Host.reduce IntOp.andi x v reducesTo_S1048576x64_S_d0_1 h_S_) main_v2 main_c
  let main_v4 : FVec F S1048576x64 .f32 := Host.absf main_arg1
  let main_cst_0 : FVec F S_ .f32 := constant S_ .f32 0x7F800000#32
  let main_v5 : FVec F S1048576x64 .f32 := broadcastInDim S1048576x64 ![] bcast_S_S1048576x64 main_cst_0
  let main_v6 : IVec S1048576x64 1 := cmpf .olt main_v4 main_v5
  let main_c_1 : IVec S_ 1 := constantI S_ 1 1#1
  let main_v7 : IVec S_ 1 := (fun x v => Host.reduce IntOp.andi x v reducesTo_S1048576x64_S_d0_1 h_S_) main_v6 main_c_1
  let main_v8 : IVec S_ 1 := andi main_v3 main_v7
  main_v8
-- ==== Kernel.lean ====
abbrev S1048576x64 : Shape := ⟨2, ![1048576, 64]⟩
abbrev S524288x128 : Shape := ⟨2, ![524288, 128]⟩
abbrev S8192x128 : Shape := ⟨2, ![8192, 128]⟩
abbrev S8192x64 : Shape := ⟨2, ![8192, 64]⟩
abbrev S8192 : Shape := ⟨1, ![8192]⟩
abbrev S8192x1 : Shape := ⟨2, ![8192, 1]⟩

abbrev nBuf : Space → Nat
  | .hbm => 6
  | .vmem => 6
  | .smem => 0
  | _ => 0

abbrev bufTy : (tb : Table) → Fin (tcTables nBuf tb) → BufTy
  | .hbm, ⟨0, _⟩ => ⟨S1048576x64, .f32⟩
  | .hbm, ⟨1, _⟩ => ⟨S1048576x64, .f32⟩
  | .hbm, ⟨2, _⟩ => ⟨S524288x128, .f32⟩
  | .hbm, ⟨3, _⟩ => ⟨S524288x128, .f32⟩
  | .hbm, ⟨4, _⟩ => ⟨S524288x128, .f32⟩
  | .hbm, ⟨5, _⟩ => ⟨S1048576x64, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | _, _ => ⟨S1048576x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S1048576x64_S524288x128 : S1048576x64.ShapeCasts S524288x128
  shapeCasts_S524288x128_S1048576x64 : S524288x128.ShapeCasts S1048576x64
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  slices_S8192x128_o0_0_S8192x64 : S8192x128.Slices ![0, 0] S8192x64
  slices_S8192x128_o0_64_S8192x64 : S8192x128.Slices ![0, 64] S8192x64
  reduces_S8192x64_S8192 : S8192x64.Reduces [1] S8192
  shapeCasts_S8192_S8192x1 : S8192.ShapeCasts S8192x1
  broadcasts_S8192x1_S8192x64 : S8192x1.Broadcasts S8192x64
  inb_S8192x128_S8192x64_0_0 : ∀ a, (![0, 0] : Fin 2 → Nat) a + S8192x64.size a ≤ S8192x128.size a
  h_S8192x64 : 0 < S8192x64.numel
  inb_S8192x128_S8192x64_0_64 : ∀ a, (![0, 64] : Fin 2 → Nat) a + S8192x64.size a ≤ S8192x128.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S524288x128.size a
  hwx0_0 : ∀ i : grid0.Coords, EltTy.bits .f32 = 32 ∨ (Rect.block (s := S524288x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S524288x128.size a
  hwx0_1 : ∀ i : grid0.Coords, EltTy.bits .f32 = 32 ∨ (Rect.block (s := S524288x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S524288x128.size a
  hwx0_2 : ∀ i : grid0.Coords, EltTy.bits .f32 = 32 ∨ (Rect.block (s := S524288x128) S8192x128.size (cc0_transform_2 i) (hinb0_2 i)).WholeWords (EltTy.packing .f32)

variable [Facts₀]

abbrev win0_0 : Pipeline.Window sig grid0 :=
  Pipeline.Window.ofSpec (Memref.whole main_call0_v0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S8192x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1048576x64 : Shape := ⟨2, ![1048576, 64]⟩
abbrev S_ : Shape := ⟨0, ![]⟩
abbrev S1048576 : Shape := ⟨1, ![1048576]⟩
abbrev S1048576x1 : Shape := ⟨2, ![1048576, 1]⟩

abbrev nBuf : Space → Nat
  | .hbm => 18
  | .vmem => 0
  | .smem => 0
  | _ => 0

abbrev bufTy : (tb : Table) → Fin (tcTables nBuf tb) → BufTy
  | .hbm, ⟨0, _⟩ => ⟨S1048576x64, .f32⟩
  | .hbm, ⟨1, _⟩ => ⟨S1048576x64, .f32⟩
  | .hbm, ⟨2, _⟩ => ⟨S1048576x64, .f32⟩
  | .hbm, ⟨3, _⟩ => ⟨S_, .f32⟩
  | .hbm, ⟨4, _⟩ => ⟨S1048576, .f32⟩
  | .hbm, ⟨5, _⟩ => ⟨S1048576x1, .f32⟩
  | .hbm, ⟨6, _⟩ => ⟨S1048576x64, .f32⟩
  | .hbm, ⟨7, _⟩ => ⟨S_, .f32⟩
  | .hbm, ⟨8, _⟩ => ⟨S1048576, .f32⟩
  | .hbm, ⟨9, _⟩ => ⟨S1048576x1, .f32⟩
  | .hbm, ⟨10, _⟩ => ⟨S_, .f32⟩
  | .hbm, ⟨11, _⟩ => ⟨S1048576x64, .f32⟩
  | .hbm, ⟨12, _⟩ => ⟨S1048576x64, .f32⟩
  | .hbm, ⟨13, _⟩ => ⟨S1048576x64, .f32⟩
  | .hbm, ⟨14, _⟩ => ⟨S1048576x64, .f32⟩
  | .hbm, ⟨15, _⟩ => ⟨S1048576x64, .f32⟩
  | .hbm, ⟨16, _⟩ => ⟨S1048576x64, .f32⟩
  | .hbm, ⟨17, _⟩ => ⟨S1048576x64, .f32⟩
  | _, _ => ⟨S1048576x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S1048576x64_S1048576_d1 : S1048576x64.ReducesTo [1] S1048576
  h_S_ : 0 < S_.numel
  bcast_S1048576_S1048576x1_0 : S1048576.BroadcastsInDim S1048576x1 (![0] : Fin 1 → Fin S1048576x1.rank)
  bcast_S_S1048576x64 : S_.BroadcastsInDim S1048576x64 (![] : Fin 0 → Fin S1048576x64.rank)
  bcast_S1048576x1_S1048576x64_0_1 : S1048576x1.BroadcastsInDim S1048576x64 (![0, 1] : Fin 2 → Fin S1048576x64.rank)

variable [Facts₀]

class Facts : Prop extends Facts₀ where

variable [Facts]
-- ==== Proof.Reflect.lean ====
/-
  The Householder reflection of a row, as a function of an index.

  For rows `v`, `z` of width 64 the reflected row is `z − ((2·v)·⟨v, z⟩) / ⟨v, v⟩`, entry by entry
  (`rows`).  When two consecutive rows are laid side by side in one row of width 128, the entry in
  lane `q` belongs to the half `q / 64`, and its two inner products range over that half's 64 lanes
  (`pairs`).  Laying the pairs back as rows of width 64 gives `rows` of the arrays the pairs were
  made from (`unpair_pairs`): the row-major position `r·64 + c` is `(r/2)·128 + (64·(r%2) + c)`.
  Nothing here uses a law of the extended reals: both sides are the same expression of the same
  entries.
-/
import Idealize.ShloMosaic.PureOps.Ideal.Laws
import Idealize.ShloMosaic.Lib.ValueIdx
import Idealize.ShloMosaic.Lib.Pipeline.Value

noncomputable section

open scoped BigOperators

namespace Cert.Reflect

open Idealize.ShloMosaic Idealize.ShloMosaic.ValueIdx

/-- One entry of a reflected row, from the entry of `v`, the entry of `z`, and the row's inner products
    `s = ⟨v, z⟩` and `n = ⟨v, v⟩`: `z − ((2·v)·s) / n` (the `2` is the f32 pattern of 2.0). -/
def entry (v z s n : EReal) : EReal :=
  z - Ideal.div ((Ideal.ofBits .f32 0x40000000#32 * v) * s) n

/-- The reflection over rows of width 64, at row `r` and column `c`. -/
def rowsAt {n : ℕ} (A B : (⟨2, ![n, 64]⟩ : Shape).Idx → EReal) (r : Fin n) (c : Fin 64) : EReal :=
  entry (A (ix2 r c)) (B (ix2 r c)) (∑ k : Fin 64, A (ix2 r k) * B (ix2 r k))
    (∑ k : Fin 64, A (ix2 r k) * A (ix2 r k))

/-- The reflection of every row of an `[n, 64]` array `B` about the same row of `A`. -/
def rows {n : ℕ} (A B : (⟨2, ![n, 64]⟩ : Shape).Idx → EReal) : (⟨2, ![n, 64]⟩ : Shape).Idx → EReal :=
  fun i => rowsAt A B (i 0) (i 1)

/-- Lane `k` of the half of a 128-lane row that lane `q` lies in. -/
def lane (q : Fin 128) (k : Fin 64) : Fin 128 :=
  ⟨64 * (q.val / 64) + k.val, by have := q.isLt; have := k.isLt; omega⟩

theorem lane_val (q : Fin 128) (k : Fin 64) : (lane q k).val = 64 * (q.val / 64) + k.val := rfl

/-- The reflection over rows holding two width-64 rows side by side, at row `r` and lane `q`. -/
def pairsAt {n : ℕ} (A B : (⟨2, ![n, 128]⟩ : Shape).Idx → EReal) (r : Fin n) (q : Fin 128) : EReal :=
  entry (A (ix2 r q)) (B (ix2 r q)) (∑ k : Fin 64, A (ix2 r (lane q k)) * B (ix2 r (lane q k)))
    (∑ k : Fin 64, A (ix2 r (lane q k)) * A (ix2 r (lane q k)))

/-- Each half of every row of an `[n, 128]` array `B` reflected about the same half of `A`'s row. -/
def pairs {n : ℕ} (A B : (⟨2, ![n, 128]⟩ : Shape).Idx → EReal) : (⟨2, ![n, 128]⟩ : Shape).Idx → EReal :=
  fun i => pairsAt A B (i 0) (i 1)

/-- `pairs` reads only the row of its index: if `X`, `Y` are blocks of whole rows of `A`, `B` (block
    row `p` is array row `ρ p`, lanes kept), then the block of `pairs A B` is `pairs X Y`. -/
theorem pairs_comp {n n' : ℕ} (A B : (⟨2, ![n', 128]⟩ : Shape).Idx → EReal)
    (X Y : (⟨2, ![n, 128]⟩ : Shape).Idx → EReal) (ρ : Fin n → Fin n')
    (hX : ∀ (p : Fin n) (q : Fin 128), X (ix2 p q) = A (ix2 (ρ p) q))
    (hY : ∀ (p : Fin n) (q : Fin 128), Y (ix2 p q) = B (ix2 (ρ p) q))
    (p : Fin n) (q : Fin 128) :
    pairs X Y (ix2 p q) = pairs A B (ix2 (ρ p) q) := by
  show pairsAt X Y p q = pairsAt A B (ρ p) q
  unfold pairsAt
  simp only [hX, hY]

/-- An `[1048576, 64]` array laid as `[524288, 128]` reads, at `(r', q)`, the entry `(r, c)` with the same
    row-major position. -/
theorem pair_apply {α : Type} (a : (⟨2, ![1048576, 64]⟩ : Shape).Idx → α)
    (h : (⟨2, ![1048576, 64]⟩ : Shape).ShapeCasts ⟨2, ![524288, 128]⟩)
    (r : Fin 1048576) (c : Fin 64) (r' : Fin 524288) (q : Fin 128)
    (hrq : r'.val * 128 + q.val = r.val * 64 + c.val) :
    shapeCast ⟨2, ![524288, 128]⟩ a h (ix2 r' q) = a (ix2 r c) :=
  shapeCast_apply a h _ _ (by
    rw [Shape.rowMajor_val_two, Shape.rowMajor_val_two]
    show r.val * 64 + c.val = r'.val * 128 + q.val
    omega)

/-- Pairing two arrays of width-64 rows, reflecting each half, and laying the result back as rows of
    width 64 is the reflection of the rows. -/
theorem unpair_pairs (a0 a1 : (⟨2, ![1048576, 64]⟩ : Shape).Idx → EReal)
    (h1 : (⟨2, ![1048576, 64]⟩ : Shape).ShapeCasts ⟨2, ![524288, 128]⟩)
    (h2 : (⟨2, ![524288, 128]⟩ : Shape).ShapeCasts ⟨2, ![1048576, 64]⟩) :
    shapeCast ⟨2, ![1048576, 64]⟩
        (pairs (shapeCast ⟨2, ![524288, 128]⟩ a0 h1) (shapeCast ⟨2, ![524288, 128]⟩ a1 h1)) h2
      = rows a0 a1 := by
  funext j
  obtain ⟨r, c, rfl⟩ : ∃ (r : Fin 1048576) (c : Fin 64), j = ix2 r c := ⟨j 0, j 1, eq_ix2 j⟩
  have hr := r.isLt
  have hc := c.isLt
  obtain ⟨r', hr'⟩ : ∃ r' : Fin 524288, r'.val = r.val / 2 := ⟨⟨r.val / 2, by omega⟩, rfl⟩
  obtain ⟨q, hq⟩ : ∃ q : Fin 128, q.val = 64 * (r.val % 2) + c.val := ⟨⟨64 * (r.val % 2) + c.val, by omega⟩, rfl⟩
  refine (shapeCast_apply _ h2 (ix2 r c) (ix2 r' q) (by
    rw [Shape.rowMajor_val_two, Shape.rowMajor_val_two]
    show r'.val * 128 + q.val = r.val * 64 + c.val
    omega)).trans ?_
  show pairsAt _ _ r' q = rowsAt a0 a1 r c
  unfold pairsAt rowsAt
  have e0 : ∀ k : Fin 64, shapeCast ⟨2, ![524288, 128]⟩ a0 h1 (ix2 r' (lane q k)) = a0 (ix2 r k) := fun k =>
    pair_apply a0 h1 r k r' (lane q k) (by rw [lane_val]; have := k.isLt; omega)
  have e1 : ∀ k : Fin 64, shapeCast ⟨2, ![524288, 128]⟩ a1 h1 (ix2 r' (lane q k)) = a1 (ix2 r k) := fun k =>
    pair_apply a1 h1 r k r' (lane q k) (by rw [lane_val]; have := k.isLt; omega)
  rw [pair_apply a0 h1 r c r' q (by omega), pair_apply a1 h1 r c r' q (by omega)]
  simp only [e0, e1]

end Cert.Reflect

end
-- ==== Proof.LibRows.lean ====
/-
  Rows and columns of a rank-2 array, read at an index.

  For an `[a, b]` array: a reduction along axis 1 at row `r` ranges over the entries `(r, c)`, a
  reduction along axis 0 at column `c` over the entries `(r, c)`; a vector of `a` entries cast to
  the column shape `[a, 1]` reads entry `r` at `(r, 0)`, and that column broadcast to `[a, b]`
  reads it at every `(r, c)`.  The sums are plain `Finset` sums and the maxima folds of `max` from
  the accumulator's value, for the vector unit's reductions and for the host's `reduce` alike.
-/
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

open scoped BigOperators

namespace Cert.LibRows

open Idealize.ShloMosaic Idealize.ShloMosaic.ValueIdx

variable {a b : ℕ}

/-- Row `r` with lane `k` put back at axis 1 is `(r, k)`. -/
theorem lift_axis1 (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- Column `c` with row `k` put back at axis 0 is `(k, c)`. -/
theorem lift_axis0 (h : (⟨2, ![a, b]⟩ : Shape).Reduces [0] (⟨1, ![b]⟩ : Shape)) (c : Fin b)
    (k : Fin ((⟨2, ![a, b]⟩ : Shape).size 0)) : h.lift (ix1 c) k = ix2 (⟨k.val, k.isLt⟩ : Fin a) c := by
  funext d; apply Fin.ext
  fin_cases d <;> rfl

/-- A lane sum of an `[a, b]` vector, at row `r`: the sum of the row's entries. -/
theorem laneSum_apply {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] ⟨1, ![a]⟩ src acc h hφ hacc (ix1 r) = ∑ c : Fin b, src (ix2 r c) := by
  rw [Ideal.multiReduction_add_single]
  exact Finset.sum_congr rfl fun k _ => congrArg src (lift_axis1 h r k)

/-- A lane maximum of an `[a, b]` vector, at row `r`: the fold of `max` over the row from the accumulator. -/
theorem laneMax_apply {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun c => src (ix2 r c)) := by
  rw [Ideal.multiReduction_maximumf_single]
  have hf : (src ∘ h.lift (ix1 r)) = fun c : Fin b => src (ix2 r c) :=
    funext fun k => congrArg src (lift_axis1 h r k)
  exact congrArg (fun f => Finset.fold max (Ideal.ofBits φ acc) f (Finset.univ : Finset (Fin b))) hf

/-- A sum over the rows of an `[a, b]` vector, at column `c`. -/
theorem rowSum_apply {φ : FTy} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (c : Fin b) :
    multiReduction .add [0] ⟨1, ![b]⟩ src acc h hφ hacc (ix1 c) = ∑ r : Fin a, src (ix2 r c) := by
  rw [Ideal.multiReduction_add_single]
  exact Finset.sum_congr rfl fun k _ => congrArg src (lift_axis0 h c k)

/-- The host's `reduce` with a maximum body along axis 1 of an f32 `[a, b]` array, at row `r`: the same fold,
    from the initial value's one entry. -/
theorem hostLaneMax_apply {u : Shape} (x : (⟨2, ![a, b]⟩ : Shape).Idx → Ideal .f32) (init : u.Idx → Ideal .f32)
    (h' : (⟨2, ![a, b]⟩ : Shape).ReducesTo [1] (⟨1, ![a]⟩ : Shape))
    (h : (⟨2, ![a, b]⟩ : Shape).Reduces [1] (⟨1, ![a]⟩ : Shape)) (hu : 0 < u.numel) (r : Fin a) :
    Host.reduce FloatOps.maximumf x init h' hu (ix1 r)
      = (Finset.univ : Finset (Fin b)).fold max (init (Shape.Idx.first hu)) (fun c => x (ix2 r c)) := by
  rw [Host.reduce_eq_fold_single FloatOps.maximumf x init h' h hu]
  have hf : (x ∘ h.lift (ix1 r)) = fun c : Fin b => x (ix2 r c) :=
    funext fun k => congrArg x (lift_axis1 h r k)
  exact congrArg (fun f => Finset.fold max (init (Shape.Idx.first hu)) f (Finset.univ : Finset (Fin b))) hf

/-- An `[a]` vector cast to the column shape `[a, 1]` reads, at `(r, u)`, entry `r`. -/
theorem shapeCast_a_a1_apply {α : Type} (x : (⟨1, ![a]⟩ : Shape).Idx → α)
    (h : (⟨1, ![a]⟩ : Shape).ShapeCasts ⟨2, ![a, 1]⟩) (r : Fin a) (u : Fin 1) :
    shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- An `[a, 1]` column broadcast to `[a, b]` reads, at `(r, c)`, the column's entry of row `r`. -/
theorem broadcastTo_a1_ab_apply {α : Type} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Cert.LibRows

end
-- ==== Proof.Block.lean ====
/-
  What the kernel body leaves in its output block, as a function of the block index.

  The body loads two `[8192, 128]` blocks `x0` (of `v`) and `x1` (of `z`), cuts each into its two
  halves of 64 lanes, and stores into each half of the output block the reflection of the half of
  `x1` about the half of `x0`: at row `p` and lane `q` of a half,
  `z − ((2·v)·Σₖ vₖ·zₖ) / Σₖ vₖ·vₖ` with the sums over the 64 lanes of that half of row `p`.  The lane
  sums are the vector unit's reduction along axis 1 into the zero accumulator, kept as a column
  `[8192, 1]` and broadcast back along the lanes.  The two stores tile the block, so the block ends
  at `Reflect.pairs x0 x1`.
-/
import proofs.«108748_j28063316312693_2_alg».proof.Proof.Gen.KernelIdeal.Frame
import proofs.«108748_j28063316312693_2_alg».proof.Proof.Reflect
import proofs.«108748_j28063316312693_2_alg».proof.Proof.LibRows
import Idealize.ShloMosaic.Lib.Pipeline.Value
import Idealize.ShloMosaic.Lib.ValueIdx

noncomputable section

open scoped BigOperators

namespace Cert.KernelIdeal.Block

open Idealize.ShloMosaic Idealize.ShloMosaic.ValueIdx Cert.KernelIdeal Cert.KernelIdeal.Gen Cert.Reflect

/-- The half of a 128-lane block starting at lane `o`, at row `p` and lane `q` of the half: the block's
    entry at lane `o + q`. -/
theorem slice_apply (x : FVec Ideal S8192x128 .f32) (o : ℕ) (h : S8192x128.Slices ![0, o] S8192x64)
    (p : Fin 8192) (q : Fin 64) (l : Fin 128) (hl : l.val = o + q.val) :
    extractStridedSlice S8192x64 ![0, o] x h (ix2 p q) = x (ix2 p l) :=
  extractStridedSlice_apply ![0, o] x h (ix2 p q) (ix2 p l) (fun a => match a with
    | ⟨0, _⟩ => by show p.val = 0 + p.val; omega
    | ⟨1, _⟩ => by show l.val = o + q.val; exact hl)

/-- The body's arithmetic on one half: `z − ((2·v)·rowsum(v·z)) / rowsum(v·v)`, the row sums kept as
    columns and broadcast along the lanes. -/
def half (v z : FVec Ideal S8192x64 .f32) : FVec Ideal S8192x64 .f32 :=
  subf z (divf
    (mulf (mulf (broadcast S8192x64 (Scalar.ofBits (F := Ideal) .f32 0x40000000#32)) v)
      (broadcastTo S8192x64 (shapeCast S8192x1 (multiReduction .add [1] S8192 (mulf v z) 0x00000000#32
        reduces_S8192x64_S8192 (.inl rfl) rfl) shapeCasts_S8192_S8192x1) broadcasts_S8192x1_S8192x64))
    (broadcastTo S8192x64 (shapeCast S8192x1 (multiReduction .add [1] S8192 (mulf v v) 0x00000000#32
      reduces_S8192x64_S8192 (.inl rfl) rfl) shapeCasts_S8192_S8192x1) broadcasts_S8192x1_S8192x64))

/-- A lane sum kept as a column and broadcast back reads, at `(p, q)`, the sum of row `p`. -/
theorem rowsum_apply (w : FVec Ideal S8192x64 .f32) (p : Fin 8192) (q : Fin 64) :
    broadcastTo S8192x64 (shapeCast S8192x1 (multiReduction .add [1] S8192 w 0x00000000#32
        reduces_S8192x64_S8192 (.inl rfl) rfl) shapeCasts_S8192_S8192x1) broadcasts_S8192x1_S8192x64 (ix2 p q)
      = ∑ k : Fin 64, w (ix2 p k) :=
  (Cert.LibRows.broadcastTo_a1_ab_apply _ broadcasts_S8192x1_S8192x64 p q).trans
    ((Cert.LibRows.shapeCast_a_a1_apply _ shapeCasts_S8192_S8192x1 p 0).trans
      (Cert.LibRows.laneSum_apply w 0x00000000#32 reduces_S8192x64_S8192 (.inl rfl) rfl p))

/-- The half's arithmetic at an index is the reflected entry. -/
theorem half_apply (v z : FVec Ideal S8192x64 .f32) (p : Fin 8192) (q : Fin 64) :
    half v z (ix2 p q) = entry (v (ix2 p q)) (z (ix2 p q)) (∑ k : Fin 64, v (ix2 p k) * z (ix2 p k))
      (∑ k : Fin 64, v (ix2 p k) * v (ix2 p k)) := by
  unfold half entry
  rw [subf_apply, divf_apply, mulf_apply, mulf_apply, broadcast_apply, rowsum_apply, rowsum_apply]
  rfl

/-- The first store's value is the arithmetic on the halves starting at lane 0, -/
theorem pay3_eq (x0 x1 : Vec Ideal S8192x128 .f32) :
    k0_pay3 (F := Ideal) x0 x1
      = half (extractStridedSlice S8192x64 ![0, 0] x0 slices_S8192x128_o0_0_S8192x64)
          (extractStridedSlice S8192x64 ![0, 0] x1 slices_S8192x128_o0_0_S8192x64) := by
  unfold k0_pay3 k0_pay1 k0_pay2
  rw [shapeCast_self, shapeCast_self]
  rfl

/-- and the second store's the arithmetic on the halves starting at lane 64. -/
theorem pay4_eq (x0 x1 : Vec Ideal S8192x128 .f32) :
    k0_pay4 (F := Ideal) x0 x1
      = half (extractStridedSlice S8192x64 ![0, 64] x0 slices_S8192x128_o0_64_S8192x64)
          (extractStridedSlice S8192x64 ![0, 64] x1 slices_S8192x128_o0_64_S8192x64) := by
  unfold k0_pay4 k0_pay1 k0_pay2
  rw [shapeCast_self, shapeCast_self]
  rfl

/-- A lane of the half starting at lane `o` (`o` = 0 or 64) lies in that half: the lanes of its half are `o + k`. -/
theorem lane_of_half (o : ℕ) (ho : o = 0 ∨ o = 64) (l : Fin 128) (q k : Fin 64) (hl : l.val = o + q.val) :
    (lane l k).val = o + k.val := by
  rw [lane_val]
  have := q.isLt
  rcases ho with rfl | rfl <;> omega

/-- The arithmetic on the halves starting at lane `o` of two blocks, at row `p` and lane `q` of the
    half, is `pairs` of the blocks at lane `o + q`. -/
theorem half_slices_apply (x0 x1 : FVec Ideal S8192x128 .f32) (o : ℕ) (ho : o = 0 ∨ o = 64)
    (h : S8192x128.Slices ![0, o] S8192x64) (p : Fin 8192) (q : Fin 64) (l : Fin 128) (hl : l.val = o + q.val) :
    half (extractStridedSlice S8192x64 ![0, o] x0 h) (extractStridedSlice S8192x64 ![0, o] x1 h) (ix2 p q)
      = pairs x0 x1 (ix2 p l) := by
  rw [half_apply]
  show _ = pairsAt x0 x1 p l
  unfold pairsAt
  have e0 : ∀ k : Fin 64, extractStridedSlice S8192x64 ![0, o] x0 h (ix2 p k) = x0 (ix2 p (lane l k)) := fun k =>
    slice_apply x0 o h p k (lane l k) (lane_of_half o ho l q k hl)
  have e1 : ∀ k : Fin 64, extractStridedSlice S8192x64 ![0, o] x1 h (ix2 p k) = x1 (ix2 p (lane l k)) := fun k =>
    slice_apply x1 o h p k (lane l k) (lane_of_half o ho l q k hl)
  rw [slice_apply x0 o h p q l hl, slice_apply x1 o h p q l hl]
  simp only [e0, e1]

theorem hz : (![0, 0] : Fin 2 → Nat) = fun _ => 0 := funext fun a => by fin_cases a <;> rfl

/-- THE BLOCK after the body: its two stores are the two halves of `pairs x0 x1`. -/
theorem out_eq (x0 x1 : Vec Ideal S8192x128 .f32) : out0_2 (F := Ideal) x0 x1 = pairs x0 x1 := by
  funext y
  unfold out0_2
  rw [View.ld_unit_zero (S := S8192x128) hz, View.ld_unit_zero (S := S8192x128) hz, pay3_eq, pay4_eq]
  refine View.canon_apply_of_pieces (Val := Elt Ideal) (S := S8192x128) (e := .f32) (pairs x0 x1 : S8192x128.Idx → Elt Ideal .f32) _ ?_ y (cover0_2 _ _ y)
  intro pc hpc
  simp only [List.mem_cons, List.mem_nil_iff, or_false] at hpc
  rcases hpc with rfl | rfl
  · intro x
    obtain ⟨p, q, rfl⟩ : ∃ (p : Fin 8192) (q : Fin 64), x = ix2 p q := ⟨x 0, x 1, eq_ix2 x⟩
    have hq := q.isLt
    have he : r0_2.emb (ix2 p q) = ix2 p (⟨64 + q.val, by omega⟩ : Fin 128) := by
      funext a; apply Fin.ext
      match a with
      | ⟨0, _⟩ => show 0 + 1 * p.val = p.val; omega
      | ⟨1, _⟩ => show 64 + 1 * q.val = 64 + q.val; omega
    show half _ _ (ix2 p q) = pairs x0 x1 (r0_2.emb (ix2 p q))
    rw [he]
    exact half_slices_apply x0 x1 64 (.inr rfl) slices_S8192x128_o0_64_S8192x64 p q _ rfl
  · intro x
    obtain ⟨p, q, rfl⟩ : ∃ (p : Fin 8192) (q : Fin 64), x = ix2 p q := ⟨x 0, x 1, eq_ix2 x⟩
    have hq := q.isLt
    have he : r0_1.emb (ix2 p q) = ix2 p (⟨q.val, by omega⟩ : Fin 128) := by
      funext a; apply Fin.ext
      match a with
      | ⟨0, _⟩ => show 0 + 1 * p.val = p.val; omega
      | ⟨1, _⟩ => show 0 + 1 * q.val = q.val; omega
    show half _ _ (ix2 p q) = pairs x0 x1 (r0_1.emb (ix2 p q))
    rw [he]
    exact half_slices_apply x0 x1 0 (.inl rfl) slices_S8192x128_o0_0_S8192x64 p q _ (by show q.val = 0 + q.val; omega)

end Cert.KernelIdeal.Block

end
-- ==== Proof.Whole.lean ====
/-
  The kernel's result array, as a function of the argument arrays.

  Grid point `t` reads block `t` (rows `8192·t … 8192·t + 8191`, all 128 lanes) of the two paired arrays
  and writes back block `t` of the output.  `Reflect.pairs` reads only the row of its index, so what
  point `t` writes back is block `t` of `pairs` of the WHOLE paired arrays; the 64 blocks tile the
  `[524288, 128]` output (row `i` lies in block `i / 8192`), so the output ends at `pairs` of the paired
  arrays.  The paired arrays are the arguments laid as `[524288, 128]`, and the result is the output
  laid back as `[1048576, 64]`: by `Reflect.unpair_pairs` that is `Reflect.rows` of the arguments.
-/
import proofs.«108748_j28063316312693_2_alg».proof.Proof.Gen.KernelIdeal.Frame
import proofs.«108748_j28063316312693_2_alg».proof.Proof.Block
import Idealize.ShloMosaic.Lib.Pipeline.Value
import Idealize.ShloMosaic.Lib.StableHlo.Run

noncomputable section

namespace Cert.KernelIdeal.Whole

open Idealize.ShloMosaic Idealize.ShloMosaic.TcCoe Idealize.ShloMosaic.ValueIdx Idealize.SL.Sem
open Cert.KernelIdeal Cert.KernelIdeal.Gen Cert.Reflect
open Idealize.ShloMosaic.Pipeline (Dat)

variable (m : (ℓ : Loc nD τ sig) → Buf (Elt Ideal) ℓ) (ρ : Dev nD → PrngReg)

/-- The printed index maps, decided over the 64 grid points: the three windows move together along
    the rows and stay at lane block 0. -/
theorem idx_facts : ∀ t : Fin cfg0.N, win0_0.index t (0 : Fin 2) = win0_2.index t (0 : Fin 2)
    ∧ win0_0.index t (1 : Fin 2) = 0
    ∧ win0_1.index t (0 : Fin 2) = win0_2.index t (0 : Fin 2)
    ∧ win0_1.index t (1 : Fin 2) = 0
    ∧ win0_2.index t (1 : Fin 2) = 0
    ∧ win0_2.index t (0 : Fin 2) ≤ 63 :=
  (by decide +kernel : ∀ t : Fin grid0.N, _)

/-- Every row block is some point's. -/
theorem idx_onto : ∀ q0 : Fin 64, ∃ t : Fin cfg0.N, win0_2.index t = ![q0.val, 0] :=
  (by decide +kernel : ∀ q0 : Fin 64, ∃ t : Fin grid0.N, win0_2.index t = ![q0.val, 0])

/-- WHAT POINT `t` WRITES BACK is block `t` of `pairs` of the paired arrays as the region finds them. -/
theorem flushed_eq (c : Dev nD) (t : Fin cfg0.N) :
    (dats m 0 c).flushed 2 t
      = ((cfg0.win 2).blk t).view.read (Elt Ideal)
          (pairs (n := 524288) (V m c main_call0_v0) (V m c main_call0_v1)) := by
  show (cfg0.win 2).cut (grid0.coords t) ((dats m 0 c).after 2 t) = _
  rw [after0_2, Block.out_eq]
  obtain ⟨e0, e1, e2, e3, e4, e5⟩ := idx_facts t
  funext j
  obtain ⟨p, q, rfl⟩ : ∃ (p : Fin 8192) (q : Fin 128), j = ix2 p q := ⟨j 0, j 1, @eq_ix2 8192 128 j⟩
  -- the array row of block row `p`
  obtain ⟨ρ', hρ'⟩ : ∃ ρ' : Fin 8192 → Fin 524288, ∀ p : Fin 8192, (ρ' p).val = win0_2.index t (0 : Fin 2) * 8192 + p.val :=
    ⟨fun p => ⟨win0_2.index t (0 : Fin 2) * 8192 + p.val, by have := p.isLt; omega⟩, fun _ => rfl⟩
  have hemb : ((cfg0.win 2).blk t).view.emb (ix2 p q) = ix2 (ρ' p) q := by
    funext a; apply Fin.ext
    match a with
    | ⟨0, _⟩ =>
      show win0_2.index t (0 : Fin 2) * 8192 + 1 * p.val = (ρ' p).val
      rw [hρ']; omega
    | ⟨1, _⟩ =>
      show win0_2.index t (1 : Fin 2) * 128 + 1 * q.val = q.val
      omega
  have h0 : ∀ (p : Fin 8192) (q : Fin 128), iblk m c 0 t (ix2 p q) = V m c main_call0_v0 (ix2 (ρ' p) q) := by
    intro p q
    show V m c main_call0_v0 (((cfg0.win 0).blk t).view.emb (ix2 p q)) = _
    refine congrArg (V m c main_call0_v0) ?_
    funext a; apply Fin.ext
    match a with
    | ⟨0, _⟩ =>
      show win0_0.index t (0 : Fin 2) * 8192 + 1 * p.val = (ρ' p).val
      rw [hρ']; omega
    | ⟨1, _⟩ =>
      show win0_0.index t (1 : Fin 2) * 128 + 1 * q.val = q.val
      omega
  have h1 : ∀ (p : Fin 8192) (q : Fin 128), iblk m c 1 t (ix2 p q) = V m c main_call0_v1 (ix2 (ρ' p) q) := by
    intro p q
    show V m c main_call0_v1 (((cfg0.win 1).blk t).view.emb (ix2 p q)) = _
    refine congrArg (V m c main_call0_v1) ?_
    funext a; apply Fin.ext
    match a with
    | ⟨0, _⟩ =>
      show win0_1.index t (0 : Fin 2) * 8192 + 1 * p.val = (ρ' p).val
      rw [hρ']; omega
    | ⟨1, _⟩ =>
      show win0_1.index t (1 : Fin 2) * 128 + 1 * q.val = q.val
      omega
  show pairs (n := 8192) (iblk m c 0 t) (iblk m c 1 t) (ix2 p q)
    = pairs (n := 524288) (V m c main_call0_v0) (V m c main_call0_v1) (((cfg0.win 2).blk t).view.emb (ix2 p q))
  rw [hemb]
  exact pairs_comp (n := 8192) (n' := 524288) (V m c main_call0_v0) (V m c main_call0_v1)
    (iblk m c 0 t) (iblk m c 1 t) ρ' h0 h1 p q

/-- An index of the output is in point `t`'s block iff each coordinate is in the block's range. -/
theorem mem_blk (t : Fin cfg0.N) (i : S524288x128.Idx) :
    i ∈ ((cfg0.win 2).blk t).view.set ↔ ∀ a : Fin 2, win0_2.index t a * S8192x128.size a ≤ (i a).val
      ∧ (i a).val < win0_2.index t a * S8192x128.size a + S8192x128.size a := by
  show i ∈ ((View.whole main_call0_v2).slice (win0_2.rect t)).set ↔ _
  rw [View.set_slice_whole, Rect.mem_set_unit]
  exact Iff.rfl

/-- The blocks tile the output: row `i` lies in block `i / 8192`. -/
theorem cover (i : S524288x128.Idx) :
    ∃ t : Fin cfg0.N, (cfg0.win 2).flush t = true ∧ i ∈ ((cfg0.win 2).blk t).view.set := by
  have hi0 : (i 0).val < 524288 := (i 0).isLt
  have hi1 : (i 1).val < 128 := (i 1).isLt
  obtain ⟨t, ht⟩ := idx_onto ⟨(i 0).val / 8192, by omega⟩
  have q0 : win0_2.index t (0 : Fin 2) = (i 0).val / 8192 := congrFun ht 0
  have q1 : win0_2.index t (1 : Fin 2) = 0 := congrFun ht 1
  refine ⟨t, flush0_2 t, ?_⟩
  rw [mem_blk]
  intro a
  match a with
  | ⟨0, _⟩ =>
    show win0_2.index t (0 : Fin 2) * 8192 ≤ (i 0).val ∧ (i 0).val < win0_2.index t (0 : Fin 2) * 8192 + 8192
    omega
  | ⟨1, _⟩ =>
    show win0_2.index t (1 : Fin 2) * 128 ≤ (i 1).val ∧ (i 1).val < win0_2.index t (1 : Fin 2) * 128 + 128
    omega

/-- THE OUTPUT ARRAY after the run: `pairs` of the paired arrays. -/
theorem final (c : Dev nD) :
    (dats m 0 c).arrAt 2 cfg0.N = pairs (n := 524288) (V m c main_call0_v0) (V m c main_call0_v1) :=
  (dats m 0 c).arrAt_eq_of_cover 2 _ (fun t _ => flushed_eq m c t) cover

/-- The paired arrays are the arguments laid as `[524288, 128]`. -/
theorem V_v0 (c : Dev nD) : (V m c main_call0_v0 : S524288x128.Idx → EReal)
    = shapeCast S524288x128 (m ((c : Thread nD τ).loc main_arg0)) shapeCasts_S1048576x64_S524288x128 := by
  show StableHlo.after hostOps0 (fun b => m (c, b)) (Proc.devRef .tc main_call0_v0) = _
  after_results
  rfl

theorem V_v1 (c : Dev nD) : (V m c main_call0_v1 : S524288x128.Idx → EReal)
    = shapeCast S524288x128 (m ((c : Thread nD τ).loc main_arg1)) shapeCasts_S1048576x64_S524288x128 := by
  show StableHlo.after hostOps0 (fun b => m (c, b)) (Proc.devRef .tc main_call0_v1) = _
  after_results
  rfl

/-- The result is the output array laid back as `[1048576, 64]`. -/
theorem tail_eq (c : Dev nD) :
    (Pipeline.afterTail₀ cfgs (dats m) 0 (V0 m) [hostOps1] c main_v0 : S1048576x64.Idx → EReal)
      = shapeCast S1048576x64 ((dats m 0 c).arrAt 2 cfg0.N) shapeCasts_S524288x128_S1048576x64 := by
  unfold Pipeline.afterTail₀
  show StableHlo.after hostOps1 _ (Proc.devRef .tc main_v0) = _
  after_results
  show shapeCast S1048576x64 (Pipeline.withArrays spec0 c (V0 m c) (fun w => (dats m 0 c).arrAt w cfg0.N)
      (Proc.devRef .tc (Pipeline.arrRef spec0 2))) shapeCasts_S524288x128_S1048576x64 = _
  rw [Pipeline.withArrays_arr spec0 launch0.win.arr_inj c (V0 m c) _ 2]

/-- THE RESULT after the run: the reflection of the rows of the second argument about the rows of the first. -/
theorem result_eq (c : Dev nD) :
    (Pipeline.afterTail₀ cfgs (dats m) 0 (V0 m) [hostOps1] c main_v0 : S1048576x64.Idx → EReal)
      = rows (n := 1048576) (m ((c : Thread nD τ).loc main_arg0)) (m ((c : Thread nD τ).loc main_arg1)) := by
  rw [tail_eq, final, V_v0, V_v1]
  exact unpair_pairs _ _ shapeCasts_S1048576x64_S524288x128 shapeCasts_S524288x128_S1048576x64

/-- The frame run re-posted: the result array at `rows` of the arguments, the arguments unchanged. -/
theorem run : θ_run defs (onTc (τ := τ) (main (F := Ideal))) ⟨m, fun _ => 0, ρ⟩ fun r => ∀ c : Dev nD,
      r.2.mem ((c.tc : Thread nD τ).loc main_v0)
        = rows (n := 1048576) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v0 (Pipeline.mem_restRefs_of main_v0 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Whole

end
-- ==== Proof.Reference.lean ====
/-
  The reference computes the reflection of the rows.

  Its result at `(r, c)` is `z − ((2·v)·(0 + Σₖ vₖ·zₖ)) / (0 + Σₖ vₖ·vₖ)` over the 64 entries of row `r`:
  the host's sums start from the zero pattern, which denotes `0`, and the kept-dims columns
  broadcast back along the row.
-/
import proofs.«108748_j28063316312693_2_alg».proof.Proof.Gen.ReferenceIdeal.Read
import proofs.«108748_j28063316312693_2_alg».proof.Proof.Reflect
import Idealize.ShloMosaic.Lib.ValueIdx

noncomputable section

open scoped BigOperators

namespace Cert.ReferenceIdeal.RefValue

open Idealize.ShloMosaic Idealize.ShloMosaic.ValueIdx Cert.ReferenceIdeal Cert.ReferenceIdeal.Read Cert.Reflect

/-- The entries a row sum at `(r, c)` ranges over: row `r`. -/
theorem idx_row1 (r : Fin 1048576) (c k : Fin 64) :
    idx_main_v1 (idx_main_v2 (idx_main_v8 (ix2 r c))) k = ix2 r k :=
  funext fun a => Fin.ext (by match a with | ⟨0, _⟩ => rfl | ⟨1, _⟩ => rfl)

theorem idx_row4 (r : Fin 1048576) (c k : Fin 64) :
    idx_main_v4 (idx_main_v5 (idx_main_v10 (ix2 r c))) k = ix2 r k :=
  funext fun a => Fin.ext (by match a with | ⟨0, _⟩ => rfl | ⟨1, _⟩ => rfl)

/-- The reference's result is `Reflect.rows` of its arguments. -/
theorem result_eq (x0 x1 : (⟨S1048576x64, .f32⟩ : BufTy).Contents (Elt Ideal)) :
    val_main_v12 (F := Ideal) x0 x1 = rows x0 x1 := by
  funext i
  obtain ⟨r, c, rfl⟩ : ∃ (r : Fin 1048576) (c : Fin 64), i = ix2 r c := ⟨i 0, i 1, eq_ix2 i⟩
  rw [val_main_v12_apply, val_main_v11_apply, val_main_v9_apply, val_main_v7_apply, val_main_v6_apply,
    val_main_cst_1_apply, val_main_v8_apply, val_main_v2_apply, val_main_v1_apply, val_main_v10_apply,
    val_main_v5_apply, val_main_v4_apply]
  simp only [val_main_v0_apply, val_main_v3_apply, val_main_cst_apply, val_main_cst_0_apply, idx_row1, idx_row4,
    Ideal.subf_def, Ideal.mulf_def, Ideal.hostDivf_def, Ideal.ofBits_def, Ideal.ofBits_zero_f32, zero_add]
  rfl

end Cert.ReferenceIdeal.RefValue

end
-- ==== Proof.lean ====
/-
  The certificate of a row-wise Householder reflection, `z − 2·v·⟨v, z⟩ / ⟨v, v⟩` for each of 1048576
  rows of width 64.

  The kernel lays two consecutive rows side by side in one 128-lane row, streams the `[524288, 128]`
  arrays through 64 blocks of 8192 rows, and in each block reflects each 64-lane half of a row about
  the same half of the other array's row; the result is laid back as `[1048576, 64]`.  The reference
  reflects the rows directly.  At the ideal values both compute, entry by entry, the same expression
  `z − ((2·v)·Σₖ vₖ·zₖ) / Σₖ vₖ·vₖ` of the same entries of the arguments (`Reflect.rows`): the only
  differences are where the entries sit (row-major position `r·64 + c = (r/2)·128 + 64·(r%2) + c`) and
  the reference's sums starting from a zero that the vector unit's reduction does not add.  No law of
  the extended reals is used, so the inputs' finiteness is never needed.

  `Reflect`: the function and the re-laying lemma.  `Block`: what the body leaves in a block.  `Whole`:
  the output array and the kernel's run.  `Reference`: the reference's result.
-/
import proofs.«108748_j28063316312693_2_alg».proof.Defs
import proofs.«108748_j28063316312693_2_alg».proof.Proof.Gen.Kernel
import proofs.«108748_j28063316312693_2_alg».proof.Proof.Gen.Kernel.Frame
import proofs.«108748_j28063316312693_2_alg».proof.Proof.Gen.KernelIdeal
import proofs.«108748_j28063316312693_2_alg».proof.Proof.Gen.KernelIdeal.Frame
import proofs.«108748_j28063316312693_2_alg».proof.Proof.Gen.ReferenceIdeal
import proofs.«108748_j28063316312693_2_alg».proof.Proof.Gen.Pre_finite_inputs
import proofs.«108748_j28063316312693_2_alg».proof.Proof.Gen.ReferenceIdeal.Run
import proofs.«108748_j28063316312693_2_alg».proof.Proof.Gen.ReferenceIdeal.Read
import proofs.«108748_j28063316312693_2_alg».proof.Proof.Whole
import proofs.«108748_j28063316312693_2_alg».proof.Proof.Reference

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal reading rewrites no operation of the kernel. -/
theorem preserves : Cert.preserves_Kernel_KernelIdeal := trivial

/-- From memories agreeing on `v` and `z`, both programs end with the reflection of the rows of `z` about the
    rows of `v`. -/
theorem algebraic : Cert.algebraic_KernelIdeal_ReferenceIdeal := by
  intro m ρ m' ρ' _ hagree
  refine ⟨fun c => Cert.Reflect.rows (n := 1048576)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
